-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S4000x64 : Shape := ⟨2, ![4000, 64]⟩
abbrev S4000x1 : Shape := ⟨2, ![4000, 1]⟩

abbrev nBuf : Space → Nat
  | .hbm => 30
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S100000x1, .f32⟩
  | .hbm, ⟨27, _⟩ => ⟨S1x64, .f32⟩
  | .hbm, ⟨28, _⟩ => ⟨S1x64, .f32⟩
  | .hbm, ⟨29, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageHost.lean ====
/-
  What the host computes before the region, as the region finds it.

  Before the region the host gathers the feature rows along the edges' sources and adds them at the edges' targets (the
  neighbour sums), adds a one per edge at its target (the degrees), recasts the degrees as a column and each bias as a
  row. The region's windows stage exactly these buffers.
-/
import proofs.«161452_j33861522161965_2_alg».proof.Proof.Gen.KernelIdeal.Frame
import Idealize.ShloMosaic.Lib.StableHlo.Run
import Idealize.ShloMosaic.PureOps.Ideal

noncomputable section

namespace Cert.KernelIdeal.SageHost

open Cert.KernelIdeal Cert.KernelIdeal.Gen Idealize.ShloMosaic Idealize.ShloMosaic.TcCoe Idealize.SL.Sem

variable (m : (ℓ : Loc nD τ sig) → Buf (Elt Ideal) ℓ)

/-! ## What the host computes before the region -/

/-- The per-node sums of the features gathered along the incoming edges: the rows of `x0` at the edges' sources `x1`
    (a negative source index wrapped once), added into the rows named by the edges' targets `x2`, from zero. -/
def neighSum (x0 : (⟨S100000x64, .f32⟩ : BufTy).Contents (Elt Ideal)) (x1 x2 : (⟨S1000000, .i32⟩ : BufTy).Contents (Elt Ideal)) :
    (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x2)
    (Host.gather gather_S100000x64_S1000000x1_S1000000x64_1_0_n_n_0_1_164 x0
      (broadcastInDim S1000000x1 ![0] bcast_S1000000_S1000000x1_0
        (select (cmpi .slt x1 (broadcastInDim S1000000 ![] bcast_S_S1000000 (constantI S_ 32 0#32)))
          (addi x1 (broadcastInDim S1000000 ![] bcast_S_S1000000 (constantI S_ 32 100000#32))) x1)))

/-- The per-node number of incoming edges: a one per edge added at the edge's target, from zero. -/
def inDegree (x2 : (⟨S1000000, .i32⟩ : BufTy).Contents (Elt Ideal)) : (⟨S100000, .f32⟩ : BufTy).Contents (Elt Ideal) :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 x2)
    (broadcastInDim S1000000 ![] bcast_S_S1000000 (constant (F := Ideal) S_ .f32 0x3F800000#32))

/-- The region finds the neighbour sums in the buffer its second window stages. -/
theorem entry_neighSum (c : Dev nD) :
    (V m c main_v9 : S100000x64.Idx → EReal)
      = neighSum (m ((c : Thread nD τ).loc main_arg0)) (m ((c : Thread nD τ).loc main_arg1)) (m ((c : Thread nD τ).loc main_arg2)) := by
  dsimp only [Gen.V, Gen.hostOps0]
  after_results
  rfl

/-- The region finds the degrees, as a column, in the buffer its third window stages. -/
theorem entry_degree (c : Dev nD) :
    (V m c main_v14 : S100000x1.Idx → EReal)
      = shapeCast S100000x1 (inDegree (m ((c : Thread nD τ).loc main_arg2))) shapeCasts_S100000_S100000x1 := by
  dsimp only [Gen.V, Gen.hostOps0]
  after_results
  rfl

/-- The region finds the first bias, as a row, in the buffer its fifth window stages. -/
theorem entry_biasSelf (c : Dev nD) :
    (V m c main_v15 : S1x64.Idx → EReal) = shapeCast S1x64 (m ((c : Thread nD τ).loc main_arg4)) shapeCasts_S64_S1x64 := by
  dsimp only [Gen.V, Gen.hostOps0]
  after_results
  rfl

/-- The region finds the second bias, as a row, in the buffer its seventh window stages. -/
theorem entry_biasNeigh (c : Dev nD) :
    (V m c main_v16 : S1x64.Idx → EReal) = shapeCast S1x64 (m ((c : Thread nD τ).loc main_arg6)) shapeCasts_S64_S1x64 := by
  dsimp only [Gen.V, Gen.hostOps0]
  after_results
  rfl

end Cert.KernelIdeal.SageHost

end
-- ==== Proof.SageWindows.lean ====
/-
  The region's windows: which rows a grid point works on.

  The region has 25 grid points. Its row windows (features, neighbour sums, degree column, output) move with the point:
  at point `t` their block is rows `4000·t … 4000·t + 3999` of their array. Its weight and bias windows stay on their
  whole arrays. This module reads each window's block at an entry as an entry of the array the region found, says what
  a point writes back at an entry, and shows that the output's blocks cover it. Nothing here depends on the float
  instance: the statements hold for every reading of the floats.
-/
import proofs.«161452_j33861522161965_2_alg».proof.Proof.Gen.KernelIdeal.Value
import Idealize.ShloMosaic.Lib.ValueIdx
import Idealize.ShloMosaic.Lib.Pipeline.Value

noncomputable section

namespace Cert.KernelIdeal.SageWindows

open Cert.KernelIdeal Cert.KernelIdeal.Gen Idealize.ShloMosaic Idealize.ShloMosaic.TcCoe Idealize.SL.Sem
open Idealize.ShloMosaic.ValueIdx
open Idealize.ShloMosaic.Pipeline (Dat)

/-! ## The grid's index maps and the rows of a point -/

/-- The windows' printed index maps, decided over the 25 points: a row window's block index is the point along the
    rows and zero along the columns; a weight or bias window's is zero on both axes. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 25 := lt_of_lt_of_eq t.isLt N_0

/-- The node row that row `p` of point `t`'s block is. -/
def rowOf (t : Fin cfg0.N) (p : Fin 4000) : Fin 100000 :=
  ⟨t.val * 4000 + p.val, by have := point_lt t; have := p.isLt; omega⟩

theorem rowOf_val (t : Fin cfg0.N) (p : Fin 4000) : (rowOf t p).val = t.val * 4000 + p.val := rfl

/-! ## Where an entry of a block sits in its array -/

/-- Entry `(p, k)` of point `t`'s feature block is entry `(rowOf t p, k)` of the features. -/
theorem emb_feat (t : Fin cfg0.N) (p : Fin 4000) (k : Fin 64) :
    ((cfg0.win 0).blk t).view.emb (ix2 p k) = ix2 (rowOf t p) k := by
  refine funext fun a => Fin.ext ?_
  obtain ⟨e0, e1, -⟩ := index_maps t
  match a with
  | ⟨0, _⟩ => show win0_0.index t (0 : Fin 2) * 4000 + 1 * p.val = t.val * 4000 + p.val; omega
  | ⟨1, _⟩ => show win0_0.index t (1 : Fin 2) * 64 + 1 * k.val = k.val; omega

/-- Entry `(p, k)` of point `t`'s neighbour-sum block is entry `(rowOf t p, k)` of the neighbour sums. -/
theorem emb_neigh (t : Fin cfg0.N) (p : Fin 4000) (k : Fin 64) :
    ((cfg0.win 1).blk t).view.emb (ix2 p k) = ix2 (rowOf t p) k := by
  refine funext fun a => Fin.ext ?_
  obtain ⟨-, -, e0, e1, -⟩ := index_maps t
  match a with
  | ⟨0, _⟩ => show win0_1.index t (0 : Fin 2) * 4000 + 1 * p.val = t.val * 4000 + p.val; omega
  | ⟨1, _⟩ => show win0_1.index t (1 : Fin 2) * 64 + 1 * k.val = k.val; omega

/-- Entry `p` of point `t`'s degree column is entry `rowOf t p` of the degree column. -/
theorem emb_degree (t : Fin cfg0.N) (p : Fin 4000) :
    ((cfg0.win 2).blk t).view.emb (ix2 p (0 : Fin 1)) = ix2 (rowOf t p) (0 : Fin 1) := by
  refine funext fun a => Fin.ext ?_
  obtain ⟨-, -, -, -, e0, e1, -⟩ := index_maps t
  match a with
  | ⟨0, _⟩ => show win0_2.index t (0 : Fin 2) * 4000 + 1 * p.val = t.val * 4000 + p.val; omega
  | ⟨1, _⟩ => show win0_2.index t (1 : Fin 2) * 1 + 1 * 0 = 0; omega

/-- Every point's first weight block is the whole first weight matrix. -/
theorem emb_wSelf (t : Fin cfg0.N) (k q : Fin 64) :
    ((cfg0.win 3).blk t).view.emb (ix2 k q) = ix2 k q := by
  refine funext fun a => Fin.ext ?_
  obtain ⟨-, -, -, -, -, -, e0, e1, -⟩ := index_maps t
  match a with
  | ⟨0, _⟩ => show win0_3.index t (0 : Fin 2) * 64 + 1 * k.val = k.val; omega
  | ⟨1, _⟩ => show win0_3.index t (1 : Fin 2) * 64 + 1 * q.val = q.val; omega

/-- Every point's first bias block is the whole first bias row. -/
theorem emb_bSelf (t : Fin cfg0.N) (q : Fin 64) :
    ((cfg0.win 4).blk t).view.emb (ix2 (0 : Fin 1) q) = ix2 (0 : Fin 1) q := by
  refine funext fun a => Fin.ext ?_
  obtain ⟨-, -, -, -, -, -, -, -, e0, e1, -⟩ := index_maps t
  match a with
  | ⟨0, _⟩ => show win0_4.index t (0 : Fin 2) * 1 + 1 * 0 = 0; omega
  | ⟨1, _⟩ => show win0_4.index t (1 : Fin 2) * 64 + 1 * q.val = q.val; omega

/-- Every point's second weight block is the whole second weight matrix. -/
theorem emb_wNeigh (t : Fin cfg0.N) (k q : Fin 64) :
    ((cfg0.win 5).blk t).view.emb (ix2 k q) = ix2 k q := by
  refine funext fun a => Fin.ext ?_
  obtain ⟨-, -, -, -, -, -, -, -, -, -, e0, e1, -⟩ := index_maps t
  match a with
  | ⟨0, _⟩ => show win0_5.index t (0 : Fin 2) * 64 + 1 * k.val = k.val; omega
  | ⟨1, _⟩ => show win0_5.index t (1 : Fin 2) * 64 + 1 * q.val = q.val; omega

/-- Every point's second bias block is the whole second bias row. -/
theorem emb_bNeigh (t : Fin cfg0.N) (q : Fin 64) :
    ((cfg0.win 6).blk t).view.emb (ix2 (0 : Fin 1) q) = ix2 (0 : Fin 1) q := by
  refine funext fun a => Fin.ext ?_
  obtain ⟨-, -, -, -, -, -, -, -, -, -, -, -, e0, e1, -⟩ := index_maps t
  match a with
  | ⟨0, _⟩ => show win0_6.index t (0 : Fin 2) * 1 + 1 * 0 = 0; omega
  | ⟨1, _⟩ => show win0_6.index t (1 : Fin 2) * 64 + 1 * q.val = q.val; omega

/-- Entry `(p, q)` of point `t`'s output block is entry `(rowOf t p, q)` of the output. -/
theorem emb_out (t : Fin cfg0.N) (p : Fin 4000) (q : Fin 64) :
    ((cfg0.win 7).blk t).view.emb (ix2 p q) = ix2 (rowOf t p) q := by
  refine funext fun a => Fin.ext ?_
  obtain ⟨-, -, -, -, -, -, -, -, -, -, -, -, -, -, e0, e1⟩ := index_maps t
  match a with
  | ⟨0, _⟩ => show win0_7.index t (0 : Fin 2) * 4000 + 1 * p.val = t.val * 4000 + p.val; omega
  | ⟨1, _⟩ => show win0_7.index t (1 : Fin 2) * 64 + 1 * q.val = q.val; omega

/-! ## A window's block at a point, read off the array the region found -/

section blocks

variable {F : FTy → Type} [FloatOps F]
variable (m : (ℓ : Loc nD τ sig) → Buf (Elt F) ℓ)

theorem block_feat (c : Dev nD) (t : Fin cfg0.N) (y : S4000x64.Idx) :
    iblk m c 0 t y = V m c main_arg0 (((cfg0.win 0).blk t).view.emb y) := rfl

theorem block_neigh (c : Dev nD) (t : Fin cfg0.N) (y : S4000x64.Idx) :
    iblk m c 1 t y = V m c main_v9 (((cfg0.win 1).blk t).view.emb y) := rfl

theorem block_degree (c : Dev nD) (t : Fin cfg0.N) (y : S4000x1.Idx) :
    iblk m c 2 t y = V m c main_v14 (((cfg0.win 2).blk t).view.emb y) := rfl

theorem block_wSelf (c : Dev nD) (t : Fin cfg0.N) (y : S64x64.Idx) :
    iblk m c 3 t y = V m c main_arg3 (((cfg0.win 3).blk t).view.emb y) := rfl

theorem block_bSelf (c : Dev nD) (t : Fin cfg0.N) (y : S1x64.Idx) :
    iblk m c 4 t y = V m c main_v15 (((cfg0.win 4).blk t).view.emb y) := rfl

theorem block_wNeigh (c : Dev nD) (t : Fin cfg0.N) (y : S64x64.Idx) :
    iblk m c 5 t y = V m c main_arg5 (((cfg0.win 5).blk t).view.emb y) := rfl

theorem block_bNeigh (c : Dev nD) (t : Fin cfg0.N) (y : S1x64.Idx) :
    iblk m c 6 t y = V m c main_v16 (((cfg0.win 6).blk t).view.emb y) := rfl

/-- An array read through the output window's block at point `t`, at an entry of the block. -/
theorem block_out (G : S100000x64.Idx → Elt F .f32) (t : Fin cfg0.N) (y : S4000x64.Idx) :
    ((cfg0.win 7).blk t).view.read (Elt F) G y = G (((cfg0.win 7).blk t).view.emb y) := rfl

theorem origin_zero : (![0, 0] : Fin 2 → Nat) = fun _ => 0 := funext fun a => by fin_cases a <;> rfl

/-- What point `t` writes back, at an entry of its block: the value the body stores there, computed from the point's
    input blocks. -/
theorem flushed_entry (c : Dev nD) (t : Fin cfg0.N) (y : S4000x64.Idx) :
    (dats m 0 c).flushed 7 t y
      = k0_pay1 (iblk m c 2 t) (iblk m c 1 t) (iblk m c 0 t) (iblk m c 3 t) (iblk m c 4 t) (iblk m c 5 t) (iblk m c 6 t) y := by
  rw [Value.flushed7]
  unfold out0_7
  rw [View.canon_unit_zero origin_zero]
  simp only [View.ld_unit_zero (S := S4000x64) origin_zero, View.ld_unit_zero (S := S4000x1) origin_zero,
    View.ld_unit_zero (S := S64x64) origin_zero, View.ld_unit_zero (S := S1x64) origin_zero]
  rfl

end blocks

/-! ## The output's blocks cover it -/

/-- An index of the output is in point `t`'s block iff each coordinate is in the block's range on its axis. -/
theorem mem_block (t : Fin cfg0.N) (i : S100000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v17).slice (win0_7.rect t)).set ↔ _
  rw [View.set_slice_whole, Rect.mem_set_unit]
  exact Iff.rfl

/-- Every index of the output is in the block of the point its row falls in: row `r` belongs to point `r / 4000`. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : grid0.N = 25 := N_0
  have ht : (i 0).val / 4000 < cfg0.N := by show _ < grid0.N; omega
  obtain ⟨-, -, -, -, -, -, -, -, -, -, -, -, -, -, e0, e1⟩ := index_maps ⟨(i 0).val / 4000, ht⟩
  have e0' : win0_7.index ⟨(i 0).val / 4000, ht⟩ (0 : Fin 2) = (i 0).val / 4000 := e0
  refine ⟨⟨(i 0).val / 4000, ht⟩, flush0_7 _, ?_⟩
  rw [mem_block]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    omega
  | ⟨1, _⟩ =>
    show win0_7.index ⟨(i 0).val / 4000, ht⟩ (1 : Fin 2) * 64 ≤ (i 1).val
      ∧ (i 1).val < win0_7.index ⟨(i 0).val / 4000, ht⟩ (1 : Fin 2) * 64 + 64
    omega

end Cert.KernelIdeal.SageWindows

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.SageBlock.lean ====
/-
  One block of the kernel's output, entry by entry.

  At a grid point the body holds a block of 4000 node rows: the rows' features `x0`, the rows' neighbour sums `x1`, the rows'
  degrees as a column `x2`, and whole the two weight matrices `x3`, `x5` and the two biases as rows `x4`, `x6`. What it stores
  at `(p, q)` is the layer's formula on those rows: the two products are contractions over the 64 feature positions into
  a zero accumulator, the roundings to bf16 in front of them are the identity on the extended reals, the degree column
  is clamped by one and spread along the row before the division, and each bias row is spread along the columns.
-/
import proofs.«161452_j33861522161965_2_alg».proof.Proof.Gen.KernelIdeal.Skeleton
import proofs.«161452_j33861522161965_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SageBlock

open Cert.KernelIdeal Cert.KernelIdeal.Gen Idealize.ShloMosaic Idealize.ShloMosaic.ValueIdx

theorem lhs_axis0 (i : S4000x64.Idx) (c : dot_S4000x64_S64x64_S4000x64_1_0_0_1_n_n.contr.Idx) :
    (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem lhs_axis1 (i : S4000x64.Idx) (c : dot_S4000x64_S64x64_S4000x64_1_0_0_1_n_n.contr.Idx) :
    (dot_S4000x64_S64x64_S4000x64_1_0_0_1_n_n.lhsIdx i c 1).val = (c ⟨0, by decide⟩).val :=
  dot_S4000x64_S64x64_S4000x64_1_0_0_1_n_n.lhsIdx_val_of_single rfl i c

theorem rhs_axis0 (i : S4000x64.Idx) (c : dot_S4000x64_S64x64_S4000x64_1_0_0_1_n_n.contr.Idx) :
    (dot_S4000x64_S64x64_S4000x64_1_0_0_1_n_n.rhsIdx i c 0).val = (c ⟨0, by decide⟩).val :=
  dot_S4000x64_S64x64_S4000x64_1_0_0_1_n_n.rhsIdx_val_of_single rfl i c

theorem rhs_axis1 (i : S4000x64.Idx) (c : dot_S4000x64_S64x64_S4000x64_1_0_0_1_n_n.contr.Idx) :
    (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- A product of a `[4000, 64]` block with a `[64, 64]` matrix into the zero accumulator, read at `(p, q)`: the sum over the
    64 contracted positions `k` of the block's `(p, k)` times the matrix's `(k, q)`. -/
theorem matmul_entry {φ₁ φ₂ : FTy} (l : FVec Ideal S4000x64 φ₁) (r : FVec Ideal S64x64 φ₂) (p : Fin 4000) (q : Fin 64) :
    matmul dot_S4000x64_S64x64_S4000x64_1_0_0_1_n_n none l r (constant S4000x64 .f32 0x00000000#32) (ix2 p q)
      = ∑ k : Fin 64, l (ix2 p k) * r (ix2 k q) := by
  simp only [matmul]
  rw [Ideal.matmul_constant_zero_apply,
    ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q)
      ((ValueIdx.contrEquiv1 dot_S4000x64_S64x64_S4000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S4000x64_S64x64_S4000x64_1_0_0_1_n_n.rhsIdx (ix2 p q)
      ((ValueIdx.contrEquiv1 dot_S4000x64_S64x64_S4000x64_1_0_0_1_n_n 64 rfl rfl).symm k) = ix2 k q :=
    funext fun a => Fin.ext (by
      match a with
      | ⟨0, _⟩ => exact (rhs_axis0 _ _).trans hk
      | ⟨1, _⟩ => exact rhs_axis1 _ _)
  rw [el, er]

/-- What the body stores at `(p, q)` of its block, from the blocks it loaded. -/
theorem stored_entry (x0 x1 : Vec Ideal S4000x64 .f32) (x2 : Vec Ideal S4000x1 .f32) (x3 x5 : Vec Ideal S64x64 .f32)
    (x4 x6 : Vec Ideal S1x64 .f32) (p : Fin 4000) (q : Fin 64) :
    k0_pay1 x2 x1 x0 x3 x4 x5 x6 (ix2 p q)
      = ((∑ k : Fin 64, x0 (ix2 p k) * x3 (ix2 k q)) + x4 (ix2 (0 : Fin 1) q))
        + ((∑ k : Fin 64, Ideal.div (x1 (ix2 p k)) (max (x2 (ix2 p (0 : Fin 1))) (Ideal.ofBits .f32 0x3F800000#32)) * x5 (ix2 k q))
          + x6 (ix2 (0 : Fin 1) q)) := by
  unfold k0_pay1
  simp only [addf_apply, matmul_entry, broadcastTo_1b_ab_apply, shapeCast_self, truncf_apply, divf_apply,
    ColumnLayout.broadcastTo_a1_ab_apply, maximumf_apply, broadcast_apply, Ideal.ofBits_def]

end Cert.KernelIdeal.SageBlock

end
-- ==== Proof.SageSpec.lean ====
/-
  The layer both programs compute, as one function of arrays, entry by entry.

  A node's output row is a dense map of its own features plus a dense map of the mean of its in-neighbours' features:
  with `feat` the node features, `nsum` the per-node sum of the features gathered along the incoming edges, `deg` the
  per-node count of incoming edges, two weight matrices and two bias vectors,

    out[p, q] = (Σ_k feat[p, k] · wSelf[k, q] + bSelf[q]) + (Σ_k (nsum[p, k] / max(deg[p], 1)) · wNeigh[k, q] + bNeigh[q]).

  The clamp `max(deg, 1)` makes an isolated node's mean the zero row. Everything is over the extended reals; the
  constant `1` is kept as its binary32 word, which both programs spell alike, so it is never evaluated.
-/
import Idealize.ShloMosaic.PureOps.Ideal
import Idealize.ShloMosaic.Lib.ValueIdx

noncomputable section

namespace Cert.SageConv

open Idealize.ShloMosaic Idealize.ShloMosaic.ValueIdx

/-- The number of incoming edges of node `p`, clamped below by one. -/
def clampedDeg (deg : (⟨1, ![100000]⟩ : Shape).Idx → EReal) (p : Fin 100000) : EReal :=
  max (deg (ix1 p)) (Ideal.ofBits .f32 0x3F800000#32)

/-- Entry `(p, q)` of the layer's output. -/
def layerAt (feat nsum : (⟨2, ![100000, 64]⟩ : Shape).Idx → EReal) (deg : (⟨1, ![100000]⟩ : Shape).Idx → EReal)
    (wSelf wNeigh : (⟨2, ![64, 64]⟩ : Shape).Idx → EReal) (bSelf bNeigh : (⟨1, ![64]⟩ : Shape).Idx → EReal)
    (p : Fin 100000) (q : Fin 64) : EReal :=
  ((∑ k : Fin 64, feat (ix2 p k) * wSelf (ix2 k q)) + bSelf (ix1 q))
    + ((∑ k : Fin 64, Ideal.div (nsum (ix2 p k)) (clampedDeg deg p) * wNeigh (ix2 k q)) + bNeigh (ix1 q))

/-- The layer's output array. -/
def layer (feat nsum : (⟨2, ![100000, 64]⟩ : Shape).Idx → EReal) (deg : (⟨1, ![100000]⟩ : Shape).Idx → EReal)
    (wSelf wNeigh : (⟨2, ![64, 64]⟩ : Shape).Idx → EReal) (bSelf bNeigh : (⟨1, ![64]⟩ : Shape).Idx → EReal) :
    (⟨2, ![100000, 64]⟩ : Shape).Idx → EReal :=
  fun i => layerAt feat nsum deg wSelf wNeigh bSelf bNeigh (i 0) (i 1)

theorem layer_ix2 (feat nsum : (⟨2, ![100000, 64]⟩ : Shape).Idx → EReal) (deg : (⟨1, ![100000]⟩ : Shape).Idx → EReal)
    (wSelf wNeigh : (⟨2, ![64, 64]⟩ : Shape).Idx → EReal) (bSelf bNeigh : (⟨1, ![64]⟩ : Shape).Idx → EReal)
    (p : Fin 100000) (q : Fin 64) :
    layer feat nsum deg wSelf wNeigh bSelf bNeigh (ix2 p q) = layerAt feat nsum deg wSelf wNeigh bSelf bNeigh p q := rfl

end Cert.SageConv

end
-- ==== Proof.SageRegion.lean ====
/-
  From blocks to the whole output array, over the extended reals.

  Point `t` of the region reads rows `4000·t … 4000·t + 3999` of the features, of the host's neighbour sums and of the
  host's degree column, and the whole weight matrices and bias rows, and writes those rows of the output (SageWindows).
  What it stores at an entry is the layer's formula on those rows (SageBlock), and the buffers it reads hold the host
  prelude's arrays (SageHost). So every block written back is the matching block of the layer (SageSpec) of the arguments;
  the blocks cover the output; and the output array after the run is the layer.
-/
import proofs.«161452_j33861522161965_2_alg».proof.Proof.Gen.KernelIdeal.Value
import proofs.«161452_j33861522161965_2_alg».proof.Proof.SageBlock
import proofs.«161452_j33861522161965_2_alg».proof.Proof.SageHost
import proofs.«161452_j33861522161965_2_alg».proof.Proof.SageWindows
import proofs.«161452_j33861522161965_2_alg».proof.Proof.SageSpec
import proofs.«161452_j33861522161965_2_alg».proof.Proof.LibColumnLayout
import Idealize.ShloMosaic.Lib.ValueLayout

noncomputable section

namespace Cert.KernelIdeal.SageRegion

open Cert.KernelIdeal Cert.KernelIdeal.Gen Idealize.ShloMosaic Idealize.ShloMosaic.TcCoe Idealize.SL.Sem
open Idealize.ShloMosaic.ValueIdx Cert.SageConv Cert.KernelIdeal.SageHost Cert.KernelIdeal.SageWindows
open Idealize.ShloMosaic.Pipeline (Dat)

variable (m : (ℓ : Loc nD τ sig) → Buf (Elt Ideal) ℓ) (ρ : Dev nD → PrngReg)

/-! ## The input blocks of a point, read at an entry -/

/-- Row `p` of point `t`'s feature block is node row `rowOf t p` of the features. -/
theorem read_feat (c : Dev nD) (t : Fin cfg0.N) (p : Fin 4000) (k : Fin 64) :
    iblk m c 0 t (ix2 p k) = (m ((c : Thread nD τ).loc main_arg0)) (ix2 (rowOf t p) k) := by
  rw [block_feat m c t (ix2 p k), emb_feat t p k, V_main_arg0]

/-- Row `p` of point `t`'s neighbour-sum block is node row `rowOf t p` of the neighbour sums. -/
theorem read_neigh (c : Dev nD) (t : Fin cfg0.N) (p : Fin 4000) (k : Fin 64) :
    iblk m c 1 t (ix2 p k) = neighSum (m ((c : Thread nD τ).loc main_arg0)) (m ((c : Thread nD τ).loc main_arg1)) (m ((c : Thread nD τ).loc main_arg2)) (ix2 (rowOf t p) k) := by
  rw [block_neigh m c t (ix2 p k), emb_neigh t p k, entry_neighSum]

/-- Row `p` of point `t`'s degree column is the degree of node `rowOf t p`. -/
theorem read_degree (c : Dev nD) (t : Fin cfg0.N) (p : Fin 4000) :
    iblk m c 2 t (ix2 p (0 : Fin 1)) = inDegree (m ((c : Thread nD τ).loc main_arg2)) (ix1 (rowOf t p)) := by
  rw [block_degree m c t (ix2 p (0 : Fin 1)), emb_degree t p, entry_degree]
  exact ColumnLayout.shapeCast_a_a1_apply (inDegree (m ((c : Thread nD τ).loc main_arg2))) shapeCasts_S100000_S100000x1 (rowOf t p) (0 : Fin 1)

/-- Every point's first weight block is the whole first weight matrix. -/
theorem read_wSelf (c : Dev nD) (t : Fin cfg0.N) (k q : Fin 64) :
    iblk m c 3 t (ix2 k q) = (m ((c : Thread nD τ).loc main_arg3)) (ix2 k q) := by
  rw [block_wSelf m c t (ix2 k q), emb_wSelf t k q, V_main_arg3]

/-- Every point's first bias row is the first bias. -/
theorem read_bSelf (c : Dev nD) (t : Fin cfg0.N) (q : Fin 64) :
    iblk m c 4 t (ix2 (0 : Fin 1) q) = (m ((c : Thread nD τ).loc main_arg4)) (ix1 q) := by
  rw [block_bSelf m c t (ix2 (0 : Fin 1) q), emb_bSelf t q, entry_biasSelf]
  exact shapeCast_a_1a_apply (m ((c : Thread nD τ).loc main_arg4)) shapeCasts_S64_S1x64 (0 : Fin 1) q

/-- Every point's second weight block is the whole second weight matrix. -/
theorem read_wNeigh (c : Dev nD) (t : Fin cfg0.N) (k q : Fin 64) :
    iblk m c 5 t (ix2 k q) = (m ((c : Thread nD τ).loc main_arg5)) (ix2 k q) := by
  rw [block_wNeigh m c t (ix2 k q), emb_wNeigh t k q, V_main_arg5]

/-- Every point's second bias row is the second bias. -/
theorem read_bNeigh (c : Dev nD) (t : Fin cfg0.N) (q : Fin 64) :
    iblk m c 6 t (ix2 (0 : Fin 1) q) = (m ((c : Thread nD τ).loc main_arg6)) (ix1 q) := by
  rw [block_bNeigh m c t (ix2 (0 : Fin 1) q), emb_bNeigh t q, entry_biasNeigh]
  exact shapeCast_a_1a_apply (m ((c : Thread nD τ).loc main_arg6)) shapeCasts_S64_S1x64 (0 : Fin 1) q

/-! ## What a point writes back, and the array after the run -/

/-- The layer of the arguments as launched, with the host's neighbour sums and degrees. -/
def result (c : Dev nD) : S100000x64.Idx → EReal :=
  layer (m ((c : Thread nD τ).loc main_arg0)) (neighSum (m ((c : Thread nD τ).loc main_arg0)) (m ((c : Thread nD τ).loc main_arg1)) (m ((c : Thread nD τ).loc main_arg2))) (inDegree (m ((c : Thread nD τ).loc main_arg2)))
    (m ((c : Thread nD τ).loc main_arg3)) (m ((c : Thread nD τ).loc main_arg5)) (m ((c : Thread nD τ).loc main_arg4)) (m ((c : Thread nD τ).loc main_arg6))

/-- Entry `(p, q)` of what point `t` writes back is entry `(rowOf t p, q)` of the layer. -/
theorem flushed_at (c : Dev nD) (t : Fin cfg0.N) (p : Fin 4000) (q : Fin 64) :
    (dats m 0 c).flushed 7 t (ix2 p q) = result m c (ix2 (rowOf t p) q) := by
  rw [flushed_entry m c t (ix2 p q)]
  refine (SageBlock.stored_entry (iblk m c 0 t) (iblk m c 1 t) (iblk m c 2 t) (iblk m c 3 t) (iblk m c 5 t)
    (iblk m c 4 t) (iblk m c 6 t) p q).trans ?_
  unfold result
  rw [layer_ix2]
  unfold layerAt clampedDeg
  rw [read_degree m c t p, read_bSelf m c t q, read_bNeigh m c t q]
  refine congrArg₂ (fun a b : EReal => a + b)
    (congrArg₂ (fun a b : EReal => a + b) (Finset.sum_congr rfl fun k _ => ?_) rfl)
    (congrArg₂ (fun a b : EReal => a + b) (Finset.sum_congr rfl fun k _ => ?_) rfl)
  · rw [read_feat m c t p k, read_wSelf m c t k q]
  · rw [read_neigh m c t p k, read_wNeigh m c t k q]

/-- What point `t` writes back is block `t` of the layer. -/
theorem flushed_eq (c : Dev nD) (t : Fin cfg0.N) :
    (dats m 0 c).flushed 7 t = ((cfg0.win 7).blk t).view.read (Elt Ideal) (result m c) := by
  funext j
  obtain ⟨p, q, rfl⟩ : ∃ (p : Fin 4000) (q : Fin 64), j = ix2 p q := ⟨j 0, j 1, eq_ix2 j⟩
  rw [block_out (F := Ideal) (result m c) t (ix2 p q), emb_out t p q]
  exact flushed_at m c t p q

/-- The output array after the run is the layer. -/
theorem final (c : Dev nD) : (dats m 0 c).arrAt 7 cfg0.N = result m c :=
  (dats m 0 c).arrAt_eq_of_cover 7 (result m c) (fun t _ => flushed_eq m c t) covered

/-- The kernel's run: every weakly fair execution terminates with the output array at the layer of the arguments and
    the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.SageRegion

end
-- ==== Proof.SageReference.lean ====
/-
  The reference, read entry by entry, is the layer.

  Its host program computes the neighbour sums and the degrees (a gather along the edges' sources and two
  scatter-additions along their targets, left here as the arrays they produce), clamps the degrees by one, spreads them
  along the rows, divides, and then takes the two matrix products with the biases spread along the columns: at `(p, q)`
  that is the layer's formula, the products as sums over the 64 contracted positions.
-/
import proofs.«161452_j33861522161965_2_alg».proof.Proof.Gen.ReferenceIdeal.Read
import proofs.«161452_j33861522161965_2_alg».proof.Proof.SageSpec

noncomputable section

namespace Cert.ReferenceIdeal.SageRef

open Cert.ReferenceIdeal Cert.ReferenceIdeal.Read Idealize.ShloMosaic Idealize.ShloMosaic.ValueIdx Cert.SageConv

/-- The reference's result array is the layer of its arguments, its own neighbour sums and its own degrees. -/
theorem result_is_layer (x0 : (⟨S100000x64, .f32⟩ : BufTy).Contents (Elt Ideal))
    (x1 x2 : (⟨S1000000, .i32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v27 (F := Ideal) x0 x1 x2 x3 x4 x5 x6
      = layer x0 (val_main_v9 (F := Ideal) x0 x1 x2) (val_main_v13 (F := Ideal) x2) x3 x5 x4 x6 := by
  funext i
  obtain ⟨p, q, rfl⟩ : ∃ (p : Fin 100000) (q : Fin 64), i = ix2 p q := ⟨i 0, i 1, eq_ix2 i⟩
  rw [layer_ix2]
  have hl19 : ∀ k : Fin 64, lidx_main_v19 (ix2 p q) k = ix2 p k := fun k => funext fun a => Fin.ext (by
    match a with
    | ⟨0, _⟩ => rfl
    | ⟨1, _⟩ => rfl)
  have hr19 : ∀ k : Fin 64, ridx_main_v19 (ix2 p q) k = ix2 k q := fun k => funext fun a => Fin.ext (by
    match a with
    | ⟨0, _⟩ => rfl
    | ⟨1, _⟩ => rfl)
  have hl23 : ∀ k : Fin 64, lidx_main_v23 (ix2 p q) k = ix2 p k := fun k => funext fun a => Fin.ext (by
    match a with
    | ⟨0, _⟩ => rfl
    | ⟨1, _⟩ => rfl)
  have hr23 : ∀ k : Fin 64, ridx_main_v23 (ix2 p q) k = ix2 k q := fun k => funext fun a => Fin.ext (by
    match a with
    | ⟨0, _⟩ => rfl
    | ⟨1, _⟩ => rfl)
  have hb21 : idx_main_v20 (idx_main_v21 (ix2 p q)) = ix1 q := funext fun a => Fin.ext (by
    match a with
    | ⟨0, _⟩ => rfl)
  have hb25 : idx_main_v24 (idx_main_v25 (ix2 p q)) = ix1 q := funext fun a => Fin.ext (by
    match a with
    | ⟨0, _⟩ => rfl)
  have hd : ∀ k : Fin 64, idx_main_v16 (idx_main_v17 (ix2 p k)) = ix1 p := fun k => funext fun a => Fin.ext (by
    match a with
    | ⟨0, _⟩ => rfl)
  rw [val_main_v27_apply, val_main_v22_apply, val_main_v19_apply, val_main_v21_apply, val_main_v20_apply,
    val_main_v26_apply, val_main_v23_apply, val_main_v25_apply, val_main_v24_apply]
  unfold layerAt clampedDeg
  refine congrArg₂ (· + ·)
    (congrArg₂ (· + ·) (Finset.sum_congr rfl fun k _ => ?_) ?_)
    (congrArg₂ (· + ·) (Finset.sum_congr rfl fun k _ => ?_) ?_)
  · rw [hl19 k, hr19 k]
  · rw [hb21]
  · rw [hl23 k, hr23 k, val_main_v18_apply, val_main_v17_apply, val_main_v16_apply, hd k, val_main_v15_apply,
      val_main_v14_apply, val_main_cst_3_apply]
    rfl
  · rw [hb25]

end Cert.ReferenceIdeal.SageRef

end
-- ==== Proof.SageBridge.lean ====
/-
  The two programs' host preludes are one computation.

  Both programs open with the same host operations on the same arguments: the wrap of a negative source index, the
  gather of the feature rows along the edges' sources, the scatter-addition of those rows at the edges' targets, and the
  scatter-addition of a one per edge at its target. The kernel's neighbour sums and degrees and the reference's are
  therefore the same arrays, operation for operation.
-/
import proofs.«161452_j33861522161965_2_alg».proof.Proof.SageRegion
import proofs.«161452_j33861522161965_2_alg».proof.Proof.SageReference

noncomputable section

namespace Cert.Proof.SageBridge

open Idealize.ShloMosaic

/-- The neighbour sums the kernel's host prelude computes are the reference's. -/
theorem neighSum_eq (x0 : (⟨Cert.KernelIdeal.S100000x64, .f32⟩ : BufTy).Contents (Elt Ideal))
    (x1 x2 : (⟨Cert.KernelIdeal.S1000000, .i32⟩ : BufTy).Contents (Elt Ideal)) :
    Cert.KernelIdeal.SageHost.neighSum x0 x1 x2 = Cert.ReferenceIdeal.Read.val_main_v9 (F := Ideal) x0 x1 x2 := rfl

/-- The degrees the kernel's host prelude computes are the reference's. -/
theorem inDegree_eq (x2 : (⟨Cert.KernelIdeal.S1000000, .i32⟩ : BufTy).Contents (Elt Ideal)) :
    Cert.KernelIdeal.SageHost.inDegree x2 = Cert.ReferenceIdeal.Read.val_main_v13 (F := Ideal) x2 := rfl

end Cert.Proof.SageBridge

end
-- ==== Proof.lean ====
/-
  A graph layer with mean aggregation, tiled over the nodes, against its plain formula.

  Both programs compute, for every node `p` and output feature `q`,

    out[p, q] = (Σ_k feat[p, k] · wSelf[k, q] + bSelf[q]) + (Σ_k (nsum[p, k] / max(deg[p], 1)) · wNeigh[k, q] + bNeigh[q]),

  where `nsum[p, ·]` is the sum of the feature rows of the sources of the edges that end at `p` and `deg[p]` is the number of
  those edges. Both obtain `nsum` and `deg` by the same host operations (a gather and two scatter-additions). The
  reference then applies the formula to whole arrays. The kernel cuts the nodes into 25 blocks of 4000 rows and applies
  the formula to one block per grid point, rounding the matrix products' operands to a shorter float format first, which
  on the extended reals is the identity; each product there is a contraction over all 64 input features at once, so a
  block's entries are the whole array's entries and no sum is regrouped. The two results agree entry by entry with no
  appeal to finiteness: the same operations are applied in the same order to the same numbers.

  The modules: SageSpec (the formula), SageBlock (what the body stores at an entry of its block), SageHost (the host
  prelude as the region finds it), SageWindows (the blocks of a point, the cover of the output), SageRegion (the
  kernel's run), SageReference (the reference read at an entry), SageBridge (the two host preludes are one computation).
-/
import proofs.«161452_j33861522161965_2_alg».proof.Defs
import proofs.«161452_j33861522161965_2_alg».proof.Proof.Gen.Kernel
import proofs.«161452_j33861522161965_2_alg».proof.Proof.Gen.Kernel.Frame
import proofs.«161452_j33861522161965_2_alg».proof.Proof.Gen.KernelIdeal
import proofs.«161452_j33861522161965_2_alg».proof.Proof.Gen.KernelIdeal.Frame
import proofs.«161452_j33861522161965_2_alg».proof.Proof.Gen.KernelIdeal.Value
import proofs.«161452_j33861522161965_2_alg».proof.Proof.Gen.ReferenceIdeal
import proofs.«161452_j33861522161965_2_alg».proof.Proof.Gen.ReferenceIdeal.Run
import proofs.«161452_j33861522161965_2_alg».proof.Proof.Gen.ReferenceIdeal.Read
import proofs.«161452_j33861522161965_2_alg».proof.Proof.Gen.Pre_finite_inputs
import proofs.«161452_j33861522161965_2_alg».proof.Proof.SageHost
import proofs.«161452_j33861522161965_2_alg».proof.Proof.SageWindows
import proofs.«161452_j33861522161965_2_alg».proof.Proof.SageBlock
import proofs.«161452_j33861522161965_2_alg».proof.Proof.SageRegion
import proofs.«161452_j33861522161965_2_alg».proof.Proof.SageReference
import proofs.«161452_j33861522161965_2_alg».proof.Proof.SageBridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the arguments both programs end with the layer of those arguments: the kernel block
    by block, the reference on whole arrays, over one and the same host prelude. -/
theorem algebraic : Cert.algebraic_KernelIdeal_ReferenceIdeal := by
  intro m ρ m' ρ' _ hagree
  refine ⟨fun c => Cert.KernelIdeal.SageRegion.result m c, Cert.KernelIdeal.SageRegion.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.SageRef.result_is_layer, h0, h1, h2, h3, h4, h5, h6]
  show _ = Cert.KernelIdeal.SageRegion.result m c
  unfold Cert.KernelIdeal.SageRegion.result
  rw [SageBridge.neighSum_eq, SageBridge.inDegree_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
